-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x256 : Shape := ⟨2, ![400000, 256]⟩
abbrev S400000 : Shape := ⟨1, ![400000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S256x256 : Shape := ⟨2, ![256, 256]⟩
abbrev S256 : Shape := ⟨1, ![256]⟩
abbrev S_ : Shape := ⟨0, ![]⟩

class Facts : Prop where
  bcast_S_S400000x256 : S_.BroadcastsInDim S400000x256 (![] : Fin 0 → Fin S400000x256.rank)
  reducesTo_S400000x256_S_d0_1 : S400000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256x256 .f32) (main_arg9 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S128 .f32) (main_arg6 : FVec F S128x16 .f32) (main_arg7 : FVec F S16 .f32) (main_arg8 : FVec F S256x256 .f32) (main_arg9 : FVec F S256 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S400000x256 .f32) (main_arg1 : IVec S400000 32) (main_arg2 : FVec F S256x128 .f32) (main_arg3 : FVec F S128 .f32) (main_arg4 : FVec F S128x128 .f32) (main_arg5 : FVec F S128 .f32) (main_arg6 : FVec F S128x16 .f32) (main_arg7 : FVec F S16 .f32) (main_arg8 : FVec F S256x256 .f32) (main_arg9 : FVec F S256 .f32) : IVec S_ 1 :=
  let main_v0 : FVec F S400000x256 .f32 := Host.absf main_arg0
  let main_cst : FVec F S_ .f32 := constant S_ .f32 0x7F800000#32
  let main_v1 : FVec F S400000x256 .f32 := broadcastInDim S400000x256 ![] bcast_S_S400000x256 main_cst
  let main_v2 : IVec S400000x256 1 := cmpf .olt main_v0 main_v1
  let main_c : IVec S_ 1 := constantI S_ 1 1#1
  let main_v3 : IVec S_ 1 := (fun x v => Host.reduce IntOp.andi x v reducesTo_S400000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S400000x256 : Shape := ⟨2, ![400000, 256]⟩
abbrev S400000 : Shape := ⟨1, ![400000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S256x256 : Shape := ⟨2, ![256, 256]⟩
abbrev S256 : Shape := ⟨1, ![256]⟩
abbrev S400000x128 : Shape := ⟨2, ![400000, 128]⟩
abbrev S8000x256 : Shape := ⟨2, ![8000, 256]⟩
abbrev S8000x128 : Shape := ⟨2, ![8000, 128]⟩
abbrev S1x128 : Shape := ⟨2, ![1, 128]⟩
abbrev S_ : Shape := ⟨0, ![]⟩
abbrev S400000x1 : Shape := ⟨2, ![400000, 1]⟩
abbrev S400000x272 : Shape := ⟨2, ![400000, 272]⟩
abbrev S4000x128 : Shape := ⟨2, ![4000, 128]⟩
abbrev S4000x272 : Shape := ⟨2, ![4000, 272]⟩
abbrev S4000x256 : Shape := ⟨2, ![4000, 256]⟩
abbrev S1x256 : Shape := ⟨2, ![1, 256]⟩
abbrev S4000x16 : Shape := ⟨2, ![4000, 16]⟩
abbrev S1x16 : Shape := ⟨2, ![1, 16]⟩

abbrev nBuf : Space → Nat
  | .hbm => 25
  | .vmem => 18
  | .smem => 0
  | _ => 0

abbrev bufTy : (tb : Table) → Fin (tcTables nBuf tb) → BufTy
  | .hbm, ⟨0, _⟩ => ⟨S400000x256, .f32⟩
  | .hbm, ⟨1, _⟩ => ⟨S400000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S256x256, .f32⟩
  | .hbm, ⟨9, _⟩ => ⟨S256, .f32⟩
  | .hbm, ⟨10, _⟩ => ⟨S256x128, .bf16⟩
  | .hbm, ⟨11, _⟩ => ⟨S128x128, .bf16⟩
  | .hbm, ⟨12, _⟩ => ⟨S128x16, .bf16⟩
  | .hbm, ⟨13, _⟩ => ⟨S256x256, .bf16⟩
  | .hbm, ⟨14, _⟩ => ⟨S400000x128, .bf16⟩
  | .hbm, ⟨15, _⟩ => ⟨S_, .i32⟩
  | .hbm, ⟨16, _⟩ => ⟨S400000, .i32⟩
  | .hbm, ⟨17, _⟩ => ⟨S400000, .i1⟩
  | .hbm, ⟨18, _⟩ => ⟨S_, .i32⟩
  | .hbm, ⟨19, _⟩ => ⟨S400000, .i32⟩
  | .hbm, ⟨20, _⟩ => ⟨S400000, .i32⟩
  | .hbm, ⟨21, _⟩ => ⟨S400000, .i32⟩
  | .hbm, ⟨22, _⟩ => ⟨S400000x1, .i32⟩
  | .hbm, ⟨23, _⟩ => ⟨S400000x128, .bf16⟩
  | .hbm, ⟨24, _⟩ => ⟨S400000x272, .f32⟩
  | .local _ .vmem, ⟨0, _⟩ => ⟨S8000x256, .f32⟩
  | .local _ .vmem, ⟨1, _⟩ => ⟨S8000x256, .f32⟩
  | .local _ .vmem, ⟨2, _⟩ => ⟨S256x128, .bf16⟩
  | .local _ .vmem, ⟨3, _⟩ => ⟨S128, .f32⟩
  | .local _ .vmem, ⟨4, _⟩ => ⟨S128x128, .bf16⟩
  | .local _ .vmem, ⟨5, _⟩ => ⟨S128, .f32⟩
  | .local _ .vmem, ⟨6, _⟩ => ⟨S8000x128, .bf16⟩
  | .local _ .vmem, ⟨7, _⟩ => ⟨S8000x128, .bf16⟩
  | .local _ .vmem, ⟨8, _⟩ => ⟨S4000x128, .bf16⟩
  | .local _ .vmem, ⟨9, _⟩ => ⟨S4000x128, .bf16⟩
  | .local _ .vmem, ⟨10, _⟩ => ⟨S4000x128, .bf16⟩
  | .local _ .vmem, ⟨11, _⟩ => ⟨S4000x128, .bf16⟩
  | .local _ .vmem, ⟨12, _⟩ => ⟨S128x16, .bf16⟩
  | .local _ .vmem, ⟨13, _⟩ => ⟨S16, .f32⟩
  | .local _ .vmem, ⟨14, _⟩ => ⟨S256x256, .bf16⟩
  | .local _ .vmem, ⟨15, _⟩ => ⟨S256, .f32⟩
  | .local _ .vmem, ⟨16, _⟩ => ⟨S4000x272, .f32⟩
  | .local _ .vmem, ⟨17, _⟩ => ⟨S4000x272, .f32⟩
  | _, _ => ⟨S400000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x16 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x272 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  inb_S8000x256_S8000x256_0_0 : ∀ a, (![0, 0] : Fin 2 → Nat) a + S8000x256.size a ≤ S8000x256.size a
  h_S8000x256 : 0 < S8000x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8000x128_S8000x128_0_0 : ∀ a, (![0, 0] : Fin 2 → Nat) a + S8000x128.size a ≤ S8000x128.size a
  h_S8000x128 : 0 < S8000x128.numel
  packedbf16_S8000x128_S8000x128_0_0 : (Rect.unit (s := S8000x128) ![0, 0] S8000x128.size inb_S8000x128_S8000x128_0_0).PackedRows (EltTy.packing .bf16)
  bcast_S_S400000 : S_.BroadcastsInDim S400000 (![] : Fin 0 → Fin S400000.rank)
  bcast_S400000_S400000x1_0 : S400000.BroadcastsInDim S400000x1 (![0] : Fin 1 → Fin S400000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S256x256_S256x256_0_0 : ∀ a, (![0, 0] : Fin 2 → Nat) a + S256x256.size a ≤ S256x256.size a
  h_S256x256 : 0 < S256x256.numel
  shapeCasts_S256x256_S256x256 : S256x256.ShapeCasts S256x256
  concatenates_S4000x128_S4000x128_S4000x256_d1 : Shape.Concatenates [S4000x128, S4000x128] S4000x256 1
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S16_S16_0 : ∀ a, (![0] : Fin 1 → Nat) a + S16.size a ≤ S16.size a
  h_S16 : 0 < S16.numel
  shapeCasts_S16_S1x16 : S16.ShapeCasts S1x16
  broadcasts_S1x16_S4000x16 : S1x16.Broadcasts S4000x16
  concatenates_S4000x16_S4000x256_S4000x272_d1 : Shape.Concatenates [S4000x16, S4000x256] S4000x272 1
  inb_S4000x272_S4000x272_0_0 : ∀ a, (![0, 0] : Fin 2 → Nat) a + S4000x272.size a ≤ S4000x272.size a
  h_S4000x272 : 0 < S4000x272.numel
  dot_S8000x256_S256x128_S8000x128_1_0_0_1_n_n_wf : DotDims.WF S8000x256 S256x128 S8000x128 [1] [0] [0] [1] [] []
  dot_S8000x128_S128x128_S8000x128_1_0_0_1_n_n_wf : DotDims.WF S8000x128 S128x128 S8000x128 [1] [0] [0] [1] [] []
  gather_S400000x128_S400000x1_S400000x128_1_0_n_n_0_1_1128_wf : GatherDims.WF S400000x128 S400000x1 S400000x128 [1] [0] [] [0] [] 1 ![1, 128]
  dot_S4000x256_S256x256_S4000x256_1_0_0_1_n_n_wf : DotDims.WF S4000x256 S256x256 S4000x256 [1] [0] [0] [1] [] []
  dot_S4000x128_S128x16_S4000x16_1_0_0_1_n_n_wf : DotDims.WF S4000x128 S128x16 S4000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x256.size a ≤ S400000x256.size a
  hwx0_0 : ∀ i : grid0.Coords, EltTy.bits .f32 = 32 ∨ (Rect.block (s := S400000x256) S8000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x128.size a ≤ S400000x128.size a
  hwx0_5 : ∀ i : grid0.Coords, EltTy.bits .bf16 = 32 ∨ (Rect.block (s := S400000x128) S8000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S400000x128.size a
  hwx1_0 : ∀ i : grid1.Coords, EltTy.bits .bf16 = 32 ∨ (Rect.block (s := S400000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S400000x128.size a
  hwx1_1 : ∀ i : grid1.Coords, EltTy.bits .bf16 = 32 ∨ (Rect.block (s := S400000x128) S4000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x16.size a ≤ S128x16.size a
  hwx1_2 : ∀ i : grid1.Coords, EltTy.bits .bf16 = 32 ∨ (Rect.block (s := S128x16) S128x16.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16.size a ≤ S16.size a
  hwx1_3 : ∀ i : grid1.Coords, EltTy.bits .f32 = 32 ∨ (Rect.block (s := S16) S16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x272.size a ≤ S400000x272.size a
  hwx1_6 : ∀ i : grid1.Coords, EltTy.bits .f32 = 32 ∨ (Rect.block (s := S400000x272) S4000x272.size (cc1_transform_6 i) (hinb1_6 i)).WholeWords (EltTy.packing .f32)

variable [Facts₀]

def dot_S8000x256_S256x128_S8000x128_1_0_0_1_n_n : DotDims S8000x256 S256x128 S8000x128 where
  lhsContracting := [1]
  rhsContracting := [0]
  lhsNonContracting := [0]
  rhsNonContracting := [1]
  lhsBatch := []
  rhsBatch := []
  wf := dot_S8000x256_S256x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf

abbrev win0_0 : Pipeline.Window sig grid0 :=
  Pipeline.Window.ofSpec (Memref.whole main_arg0) S8000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S8000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v11) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S128x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S4000x272.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S400000x256 : Shape := ⟨2, ![400000, 256]⟩
abbrev S400000 : Shape := ⟨1, ![400000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S256x256 : Shape := ⟨2, ![256, 256]⟩
abbrev S256 : Shape := ⟨1, ![256]⟩
abbrev S400000x128 : Shape := ⟨2, ![400000, 128]⟩
abbrev S1x128 : Shape := ⟨2, ![1, 128]⟩
abbrev S_ : Shape := ⟨0, ![]⟩
abbrev S400000x16 : Shape := ⟨2, ![400000, 16]⟩
abbrev S1x16 : Shape := ⟨2, ![1, 16]⟩
abbrev S400000x1 : Shape := ⟨2, ![400000, 1]⟩
abbrev S1x256 : Shape := ⟨2, ![1, 256]⟩
abbrev S400000x272 : Shape := ⟨2, ![400000, 272]⟩

abbrev nBuf : Space → Nat
  | .hbm => 43
  | .vmem => 0
  | .smem => 0
  | _ => 0

abbrev bufTy : (tb : Table) → Fin (tcTables nBuf tb) → BufTy
  | .hbm, ⟨0, _⟩ => ⟨S400000x256, .f32⟩
  | .hbm, ⟨1, _⟩ => ⟨S400000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S256x256, .f32⟩
  | .hbm, ⟨9, _⟩ => ⟨S256, .f32⟩
  | .hbm, ⟨10, _⟩ => ⟨S400000x128, .f32⟩
  | .hbm, ⟨11, _⟩ => ⟨S1x128, .f32⟩
  | .hbm, ⟨12, _⟩ => ⟨S400000x128, .f32⟩
  | .hbm, ⟨13, _⟩ => ⟨S400000x128, .f32⟩
  | .hbm, ⟨14, _⟩ => ⟨S_, .f32⟩
  | .hbm, ⟨15, _⟩ => ⟨S400000x128, .f32⟩
  | .hbm, ⟨16, _⟩ => ⟨S400000x128, .f32⟩
  | .hbm, ⟨17, _⟩ => ⟨S400000x128, .f32⟩
  | .hbm, ⟨18, _⟩ => ⟨S1x128, .f32⟩
  | .hbm, ⟨19, _⟩ => ⟨S400000x128, .f32⟩
  | .hbm, ⟨20, _⟩ => ⟨S400000x128, .f32⟩
  | .hbm, ⟨21, _⟩ => ⟨S_, .f32⟩
  | .hbm, ⟨22, _⟩ => ⟨S400000x128, .f32⟩
  | .hbm, ⟨23, _⟩ => ⟨S400000x128, .f32⟩
  | .hbm, ⟨24, _⟩ => ⟨S400000x16, .f32⟩
  | .hbm, ⟨25, _⟩ => ⟨S1x16, .f32⟩
  | .hbm, ⟨26, _⟩ => ⟨S400000x16, .f32⟩
  | .hbm, ⟨27, _⟩ => ⟨S400000x16, .f32⟩
  | .hbm, ⟨28, _⟩ => ⟨S_, .i32⟩
  | .hbm, ⟨29, _⟩ => ⟨S400000, .i32⟩
  | .hbm, ⟨30, _⟩ => ⟨S400000, .i1⟩
  | .hbm, ⟨31, _⟩ => ⟨S_, .i32⟩
  | .hbm, ⟨32, _⟩ => ⟨S400000, .i32⟩
  | .hbm, ⟨33, _⟩ => ⟨S400000, .i32⟩
  | .hbm, ⟨34, _⟩ => ⟨S400000, .i32⟩
  | .hbm, ⟨35, _⟩ => ⟨S400000x1, .i32⟩
  | .hbm, ⟨36, _⟩ => ⟨S400000x128, .f32⟩
  | .hbm, ⟨37, _⟩ => ⟨S400000x256, .f32⟩
  | .hbm, ⟨38, _⟩ => ⟨S400000x256, .f32⟩
  | .hbm, ⟨39, _⟩ => ⟨S1x256, .f32⟩
  | .hbm, ⟨40, _⟩ => ⟨S400000x256, .f32⟩
  | .hbm, ⟨41, _⟩ => ⟨S400000x256, .f32⟩
  | .hbm, ⟨42, _⟩ => ⟨S400000x272, .f32⟩
  | _, _ => ⟨S400000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S16_S1x16_1 : S16.BroadcastsInDim S1x16 (![1] : Fin 1 → Fin S1x16.rank)
  bcast_S1x16_S400000x16_0_1 : S1x16.BroadcastsInDim S400000x16 (![0, 1] : Fin 2 → Fin S400000x16.rank)
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x256_d1 : Shape.Concatenates [S400000x128, S400000x128] S400000x256 1
  bcast_S256_S1x256_1 : S256.BroadcastsInDim S1x256 (![1] : Fin 1 → Fin S1x256.rank)
  bcast_S1x256_S400000x256_0_1 : S1x256.BroadcastsInDim S400000x256 (![0, 1] : Fin 2 → Fin S400000x256.rank)
  concatenates_S400000x16_S400000x256_S400000x272_d1 : Shape.Concatenates [S400000x16, S400000x256] S400000x272 1
  dot_S400000x256_S256x128_S400000x128_1_0_0_1_n_n_wf : DotDims.WF S400000x256 S256x128 S400000x128 [1] [0] [0] [1] [] []
  dot_S400000x128_S128x128_S400000x128_1_0_0_1_n_n_wf : DotDims.WF S400000x128 S128x128 S400000x128 [1] [0] [0] [1] [] []
  dot_S400000x128_S128x16_S400000x16_1_0_0_1_n_n_wf : DotDims.WF S400000x128 S128x16 S400000x16 [1] [0] [0] [1] [] []
  gather_S400000x128_S400000x1_S400000x128_1_0_n_n_0_1_1128_wf : GatherDims.WF S400000x128 S400000x1 S400000x128 [1] [0] [] [0] [] 1 ![1, 128]
  dot_S400000x256_S256x256_S400000x256_1_0_0_1_n_n_wf : DotDims.WF S400000x256 S256x256 S400000x256 [1] [0] [0] [1] [] []

variable [Facts₀]

def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S400000x128_S128x16_S400000x16_1_0_0_1_n_n : DotDims S400000x128 S128x16 S400000x16 where
  lhsContracting := [1]
  rhsContracting := [0]
  lhsNonContracting := [0]
  rhsNonContracting := [1]
  lhsBatch := []
  rhsBatch := []
  wf := dot_S400000x128_S128x16_S400000x16_1_0_0_1_n_n_wf
def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def dot_S400000x256_S256x256_S400000x256_1_0_0_1_n_n : DotDims S400000x256 S256x256 S400000x256 where
  lhsContracting := [1]
  rhsContracting := [0]
  lhsNonContracting := [0]
  rhsNonContracting := [1]
  lhsBatch := []
  rhsBatch := []
  wf := dot_S400000x256_S256x256_S400000x256_1_0_0_1_n_n_wf

class Facts : Prop extends Facts₀ where

variable [Facts]
-- ==== Proof.LibJoinCols.lean ====
/-
  Matrices joined along their columns, read at an entry.

  When two or three matrices with the same number of rows are laid side by side, the entry (e, q) of the result is
  the entry of the piece whose column range holds q: for widths w1, w2, w3 the first piece at column q when
  q < w1, the second at q − w1 when w1 ≤ q < w1 + w2, the third at q − w1 − w2 beyond. The result's width is
  kept as a number W of its own, so that a printed shape whose width is written as one literal is met directly.
-/
import Idealize.ShloMosaic.Lib.ValueIdx
import Idealize.ShloMosaic.Lib.Pipeline.Value

noncomputable section

namespace Idealize.ShloMosaic.JoinCols

open Idealize.ShloMosaic Idealize.ShloMosaic.ValueIdx

variable {α : Type}

/-- Two matrices side by side, at a column of the first. -/
theorem pair_left {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w1) (q : Fin W) (hq : q.val = a.val) :
    concatenate (⟨2, ![n, W]⟩ : Shape) 1 [⟨(⟨2, ![n, w1]⟩ : Shape), A⟩, ⟨(⟨2, ![n, w2]⟩ : Shape), B⟩] h (ix2 e q) = A (ix2 e a) :=
  concatenate_pair_apply_left 1 A B h (ix2 e q) rfl (ix2 e a)
    (fun b => match b with | ⟨0, _⟩ => rfl | ⟨1, _⟩ => hq.symm)

/-- Two matrices side by side, at a column of the second. -/
theorem pair_right {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w2) (q : Fin W) (hq : q.val = w1 + a.val) :
    concatenate (⟨2, ![n, W]⟩ : Shape) 1 [⟨(⟨2, ![n, w1]⟩ : Shape), A⟩, ⟨(⟨2, ![n, w2]⟩ : Shape), B⟩] h (ix2 e q) = B (ix2 e a) :=
  concatenate_pair_apply_right 1 A B h (ix2 e q) rfl rfl (ix2 e a)
    (fun b hb => match b with | ⟨0, _⟩ => rfl | ⟨1, _⟩ => absurd rfl hb)
    (by show a.val + w1 = q.val; omega)

/-- Three matrices side by side, at a column of the first. -/
theorem triple_left {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w1) (q : Fin W) (hq : q.val = a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = A (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 0 (by simp) _ A rfl rfl 0 rfl (ix2 e a)
    (fun b hb => match b with | ⟨0, _⟩ => rfl | ⟨1, _⟩ => absurd rfl hb)
    (by show 0 + a.val = q.val; omega)

/-- Three matrices side by side, at a column of the second. -/
theorem triple_mid {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w2) (q : Fin W) (hq : q.val = w1 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = B (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 1 (by simp) _ B rfl rfl w1 (by simp) (ix2 e a)
    (fun b hb => match b with | ⟨0, _⟩ => rfl | ⟨1, _⟩ => absurd rfl hb)
    (by show w1 + a.val = q.val; omega)

/-- Three matrices side by side, at a column of the third. -/
theorem triple_right {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w3) (q : Fin W) (hq : q.val = w1 + w2 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = C (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 2 (by simp) _ C rfl rfl (w1 + w2) (by simp) (ix2 e a)
    (fun b hb => match b with | ⟨0, _⟩ => rfl | ⟨1, _⟩ => absurd rfl hb)
    (by show w1 + w2 + a.val = q.val; omega)

end Idealize.ShloMosaic.JoinCols

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibEdgeMlp.lean ====
/-
  A three-layer perceptron applied to the rows of an edge-feature matrix, read at an entry.

  For an edge with endpoint features xi, xj (two rows of width f) the edge feature is the row [xi, xj − xi] of
  width 2f. A dense layer sends a row v of width K to the row (∑ k, v k · W (k, j)) + b j of width N; the
  perceptron is three dense layers with the rectifier max(·, z) after the first two. Each output entry (r, j)
  depends on row r of the two endpoint matrices only, so the perceptron of a block of rows is the same rows
  of the perceptron of the whole matrix.

  The layer as a vector program computes it — a matrix product into the zero accumulator, a bias vector set
  under a unit axis and spread over the rows, a sum — is read at an entry as the dense layer of that row, and
  so is the host's spelling of it (a dot_general and two broadcast_in_dim steps for the bias).
-/
import Idealize.ShloMosaic.Lib.ValueIdx
import Idealize.ShloMosaic.Lib.ValueLayout
import Idealize.ShloMosaic.Lib.Pipeline.Value
import Idealize.ShloMosaic.PureOps.Ideal.Laws
import proofs.«148463_j17549236372232_2_alg».proof.Proof.LibContract
import proofs.«148463_j17549236372232_2_alg».proof.Proof.LibJoinCols
import proofs.«148463_j17549236372232_2_alg».proof.Proof.LibKeepdims

noncomputable section

open scoped BigOperators

namespace Idealize.ShloMosaic.EdgeMlp

open Idealize.ShloMosaic Idealize.ShloMosaic.ValueIdx

/-- One dense layer on a row: entry j of v · W + b. -/
def dense {K N : ℕ} (w : (⟨2, ![K, N]⟩ : Shape).Idx → EReal) (b : (⟨1, ![N]⟩ : Shape).Idx → EReal)
    (v : Fin K → EReal) (j : Fin N) : EReal :=
  (∑ k : Fin K, v k * w (ix2 k j)) + b (ix1 j)

/-- Three dense layers, the rectifier max(·, z) after the first and the second. -/
def mlp3 {E H : ℕ} (z : EReal) (w1 : (⟨2, ![E, H]⟩ : Shape).Idx → EReal) (b1 : (⟨1, ![H]⟩ : Shape).Idx → EReal)
    (w2 : (⟨2, ![H, H]⟩ : Shape).Idx → EReal) (b2 : (⟨1, ![H]⟩ : Shape).Idx → EReal)
    (w3 : (⟨2, ![H, H]⟩ : Shape).Idx → EReal) (b3 : (⟨1, ![H]⟩ : Shape).Idx → EReal)
    (v : Fin E → EReal) (j : Fin H) : EReal :=
  dense w3 b3 (fun k => max (dense w2 b2 (fun k' => max (dense w1 b1 v k') z) k) z) j

/-- A dense layer depends on its row entry by entry. -/
theorem dense_congr {K N : ℕ} (w : (⟨2, ![K, N]⟩ : Shape).Idx → EReal) (b : (⟨1, ![N]⟩ : Shape).Idx → EReal)
    (v v' : Fin K → EReal) (h : ∀ k, v k = v' k) (j : Fin N) : dense w b v j = dense w b v' j := by
  rw [show v = v' from funext h]

/-- So does the perceptron. -/
theorem mlp3_congr {E H : ℕ} (z : EReal) (w1 : (⟨2, ![E, H]⟩ : Shape).Idx → EReal) (b1 : (⟨1, ![H]⟩ : Shape).Idx → EReal)
    (w2 : (⟨2, ![H, H]⟩ : Shape).Idx → EReal) (b2 : (⟨1, ![H]⟩ : Shape).Idx → EReal)
    (w3 : (⟨2, ![H, H]⟩ : Shape).Idx → EReal) (b3 : (⟨1, ![H]⟩ : Shape).Idx → EReal)
    (v v' : Fin E → EReal) (h : ∀ k, v k = v' k) (j : Fin H) :
    mlp3 z w1 b1 w2 b2 w3 b3 v j = mlp3 z w1 b1 w2 b2 w3 b3 v' j := by
  rw [show v = v' from funext h]

/-- The perceptron of every row of the edge-feature matrix [A, B − A]: entry (r, j) of the result. -/
def edgeMlp {n f E H : ℕ}
    (hcat : Shape.Concatenates [(⟨2, ![n, f]⟩ : Shape), (⟨2, ![n, f]⟩ : Shape)] (⟨2, ![n, E]⟩ : Shape) 1) (z : EReal)
    (A B : (⟨2, ![n, f]⟩ : Shape).Idx → EReal)
    (w1 : (⟨2, ![E, H]⟩ : Shape).Idx → EReal) (b1 : (⟨1, ![H]⟩ : Shape).Idx → EReal)
    (w2 : (⟨2, ![H, H]⟩ : Shape).Idx → EReal) (b2 : (⟨1, ![H]⟩ : Shape).Idx → EReal)
    (w3 : (⟨2, ![H, H]⟩ : Shape).Idx → EReal) (b3 : (⟨1, ![H]⟩ : Shape).Idx → EReal) :
    (⟨2, ![n, H]⟩ : Shape).Idx → EReal := fun i =>
  mlp3 z w1 b1 w2 b2 w3 b3
    (fun k => concatenate (⟨2, ![n, E]⟩ : Shape) 1
      [⟨(⟨2, ![n, f]⟩ : Shape), A⟩, ⟨(⟨2, ![n, f]⟩ : Shape), subf (F := Ideal) (φ := .f32) B A⟩] hcat (ix2 (i 0) k)) (i 1)

/-- Two matrices joined along their columns agree on a row once both pieces agree on it, whatever the two
    row counts: entry (r, q) comes from column q of the first piece or column q − f of the second. -/
theorem join_rows_congr {α : Type} {n n' f W : ℕ}
    (A B : (⟨2, ![n, f]⟩ : Shape).Idx → α) (A' B' : (⟨2, ![n', f]⟩ : Shape).Idx → α)
    (h : Shape.Concatenates [(⟨2, ![n, f]⟩ : Shape), (⟨2, ![n, f]⟩ : Shape)] (⟨2, ![n, W]⟩ : Shape) 1)
    (h' : Shape.Concatenates [(⟨2, ![n', f]⟩ : Shape), (⟨2, ![n', f]⟩ : Shape)] (⟨2, ![n', W]⟩ : Shape) 1)
    (hW : W = f + f) (r : Fin n) (r' : Fin n')
    (hA : ∀ a : Fin f, A (ix2 r a) = A' (ix2 r' a)) (hB : ∀ a : Fin f, B (ix2 r a) = B' (ix2 r' a)) (q : Fin W) :
    concatenate (⟨2, ![n, W]⟩ : Shape) 1 [⟨(⟨2, ![n, f]⟩ : Shape), A⟩, ⟨(⟨2, ![n, f]⟩ : Shape), B⟩] h (ix2 r q)
      = concatenate (⟨2, ![n', W]⟩ : Shape) 1 [⟨(⟨2, ![n', f]⟩ : Shape), A'⟩, ⟨(⟨2, ![n', f]⟩ : Shape), B'⟩] h' (ix2 r' q) := by
  by_cases hq : q.val < f
  · rw [JoinCols.pair_left A B h r ⟨q.val, hq⟩ q rfl, JoinCols.pair_left A' B' h' r' ⟨q.val, hq⟩ q rfl]
    exact hA _
  · have hq' : q.val - f < f := by have := q.isLt; omega
    have e : q.val = f + (⟨q.val - f, hq'⟩ : Fin f).val := by show q.val = f + (q.val - f); omega
    rw [JoinCols.pair_right A B h r ⟨q.val - f, hq'⟩ q e, JoinCols.pair_right A' B' h' r' ⟨q.val - f, hq'⟩ q e]
    exact hB _

/-- ROWS OF A BLOCK: when row r of the block matrices A, B is row r' of the whole matrices A', B', entry (r, j)
    of the block's perceptron is entry (r', j) of the whole one (same weights). -/
theorem edgeMlp_rows {n n' f E H : ℕ}
    (hcat : Shape.Concatenates [(⟨2, ![n, f]⟩ : Shape), (⟨2, ![n, f]⟩ : Shape)] (⟨2, ![n, E]⟩ : Shape) 1)
    (hcat' : Shape.Concatenates [(⟨2, ![n', f]⟩ : Shape), (⟨2, ![n', f]⟩ : Shape)] (⟨2, ![n', E]⟩ : Shape) 1)
    (hE : E = f + f) (z : EReal)
    (A B : (⟨2, ![n, f]⟩ : Shape).Idx → EReal) (A' B' : (⟨2, ![n', f]⟩ : Shape).Idx → EReal)
    (w1 : (⟨2, ![E, H]⟩ : Shape).Idx → EReal) (b1 : (⟨1, ![H]⟩ : Shape).Idx → EReal)
    (w2 : (⟨2, ![H, H]⟩ : Shape).Idx → EReal) (b2 : (⟨1, ![H]⟩ : Shape).Idx → EReal)
    (w3 : (⟨2, ![H, H]⟩ : Shape).Idx → EReal) (b3 : (⟨1, ![H]⟩ : Shape).Idx → EReal)
    (r : Fin n) (r' : Fin n')
    (hA : ∀ a : Fin f, A (ix2 r a) = A' (ix2 r' a)) (hB : ∀ a : Fin f, B (ix2 r a) = B' (ix2 r' a)) (j : Fin H) :
    edgeMlp hcat z A B w1 b1 w2 b2 w3 b3 (ix2 r j) = edgeMlp hcat' z A' B' w1 b1 w2 b2 w3 b3 (ix2 r' j) := by
  unfold edgeMlp
  refine mlp3_congr z w1 b1 w2 b2 w3 b3 _ _ (fun k => ?_) j
  refine join_rows_congr A _ A' _ hcat hcat' hE r r' hA (fun a => ?_) k
  show B (ix2 r a) - A (ix2 r a) = B' (ix2 r' a) - A' (ix2 r' a)
  rw [hA a, hB a]

/-- THE LAYER AS THE KERNEL COMPUTES IT: a matrix product of an [n, K] and a [K, N] matrix into the zero
    accumulator, plus a bias vector placed under a unit axis and spread over the n rows, is at (r, j) the dense
    layer of row r. -/
theorem matmul_bias_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨1, ![N]⟩ : Shape) .f32)
    (hc : (⟨1, ![N]⟩ : Shape).ShapeCasts ⟨2, ![1, N]⟩) (hb : (⟨2, ![1, N]⟩ : Shape).Broadcasts ⟨2, ![n, N]⟩)
    (r : Fin n) (j : Fin N) :
    addf (matmul D prec x w (constant (F := Ideal) (⟨2, ![n, N]⟩ : Shape) .f32 0x00000000#32))
        (broadcastTo (⟨2, ![n, N]⟩ : Shape) (shapeCast (⟨2, ![1, N]⟩ : Shape) b hc) hb) (ix2 r j)
      = dense w b (fun k => x (ix2 r k)) j := by
  rw [addf_apply, broadcastTo_1b_ab_apply, shapeCast_a_1a_apply]
  refine congrArg (· + b (ix1 j)) ?_
  refine (Ideal.matmul_constant_zero_apply D prec x w (ix2 r j)).trans ?_
  exact Contract2.sum_contr_eq_sum_fin D hr hs hlc hrc hl0 hr1 x w (ix2 r j)

/-- THE LAYER AS THE HOST COMPUTES IT: a dot_general of an [n, K] and a [K, N] matrix plus a bias vector placed
    under a unit axis and spread over the n rows is at (r, j) the dense layer of row r. -/
theorem dot_bias_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![n, N]⟩ ![0, 1])
    (r : Fin n) (j : Fin N) :
    addf (Host.dotGeneral D prec x w)
        (broadcastInDim (⟨2, ![n, N]⟩ : Shape) ![0, 1] h2 (broadcastInDim (⟨2, ![1, N]⟩ : Shape) ![1] h1 b)) (ix2 r j)
      = dense w b (fun k => x (ix2 r k)) j := by
  rw [addf_apply, Keepdims.cols_apply h1 h2 b r j]
  refine congrArg (· + b (ix1 j)) ?_
  simp only [Host.dotGeneral]
  refine (Ideal.dotGeneral_apply D prec _ x w (ix2 r j)).trans ?_
  exact Contract2.sum_contr_eq_sum_fin D hr hs hlc hrc hl0 hr1 x w (ix2 r j)

/-- The host's rectifier, a maximum with the zero constant spread to the whole shape, at an entry. -/
theorem relu_host_apply {s : Shape} (y : FVec Ideal s .f32) (h : (⟨0, ![]⟩ : Shape).BroadcastsInDim s ![]) (i : s.Idx) :
    maximumf y (broadcastInDim s ![] h (constant (F := Ideal) (⟨0, ![]⟩ : Shape) .f32 0x00000000#32)) i
      = max (y i) (Ideal.ofBits .f32 0x00000000#32) := by
  rw [maximumf_apply]
  exact congrArg (max (y i)) (broadcastInDim_apply _ h _ i (fun a => a.elim0) (fun a => a.elim0))

end Idealize.ShloMosaic.EdgeMlp

end
-- ==== Proof.Spec.lean ====
/-
  The network, row by row.

  Every node of the forest has a feature row f of width D. Two dense layers with the rectifier max(·, z) after
  each give its hidden row h of width H:

      h = max (max (f · W1 + b1, z) · W2 + b2, z).

  A node's output row of width C + CC is the unary row  h · Wu + bu  followed by the edge row
  [h_parent, h] · We + be,  where h_parent is the hidden row of the node's parent. Which row is the parent's is
  decided outside these formulas: the parent rows enter as a matrix of their own.

  Each output row depends on one row of each matrix only. So the hidden matrix of a block of consecutive rows is
  the same rows of the hidden matrix of all rows, and likewise for the output matrix: this is what lets a
  computation done block by block be compared with one done on whole matrices.
-/
import Idealize.ShloMosaic.Lib.ValueIdx
import Idealize.ShloMosaic.Lib.Pipeline.Value
import proofs.«148463_j17549236372232_2_alg».proof.Proof.LibJoinCols
import proofs.«148463_j17549236372232_2_alg».proof.Proof.LibEdgeMlp

noncomputable section

open scoped BigOperators

namespace Cert.TreePotentials

open Idealize.ShloMosaic Idealize.ShloMosaic.ValueIdx Idealize.ShloMosaic.EdgeMlp

/-- The hidden row of a feature row v: two dense layers, the rectifier after each. -/
def hiddenRow {D H : ℕ} (z : EReal) (w1 : (⟨2, ![D, H]⟩ : Shape).Idx → EReal) (b1 : (⟨1, ![H]⟩ : Shape).Idx → EReal)
    (w2 : (⟨2, ![H, H]⟩ : Shape).Idx → EReal) (b2 : (⟨1, ![H]⟩ : Shape).Idx → EReal) (v : Fin D → EReal) (j : Fin H) : EReal :=
  max (dense w2 b2 (fun k => max (dense w1 b1 v k) z) j) z

/-- The hidden matrix of a feature matrix: entry (r, j) is entry j of the hidden row of row r. -/
def hidden {n D H : ℕ} (z : EReal) (f : (⟨2, ![n, D]⟩ : Shape).Idx → EReal)
    (w1 : (⟨2, ![D, H]⟩ : Shape).Idx → EReal) (b1 : (⟨1, ![H]⟩ : Shape).Idx → EReal)
    (w2 : (⟨2, ![H, H]⟩ : Shape).Idx → EReal) (b2 : (⟨1, ![H]⟩ : Shape).Idx → EReal) :
    (⟨2, ![n, H]⟩ : Shape).Idx → EReal :=
  fun i => hiddenRow z w1 b1 w2 b2 (fun k => f (ix2 (i 0) k)) (i 1)

/-- ROWS OF A BLOCK: when row r of the feature matrix f is row r' of f', row r of the hidden matrix of f is
    row r' of the hidden matrix of f'. -/
theorem hidden_rows {n n' D H : ℕ} (z : EReal) (f : (⟨2, ![n, D]⟩ : Shape).Idx → EReal) (f' : (⟨2, ![n', D]⟩ : Shape).Idx → EReal)
    (w1 : (⟨2, ![D, H]⟩ : Shape).Idx → EReal) (b1 : (⟨1, ![H]⟩ : Shape).Idx → EReal)
    (w2 : (⟨2, ![H, H]⟩ : Shape).Idx → EReal) (b2 : (⟨1, ![H]⟩ : Shape).Idx → EReal)
    (r : Fin n) (r' : Fin n') (hf : ∀ k : Fin D, f (ix2 r k) = f' (ix2 r' k)) (j : Fin H) :
    hidden z f w1 b1 w2 b2 (ix2 r j) = hidden z f' w1 b1 w2 b2 (ix2 r' j) := by
  show hiddenRow z w1 b1 w2 b2 (fun k => f (ix2 r k)) j = hiddenRow z w1 b1 w2 b2 (fun k => f' (ix2 r' k)) j
  rw [show (fun k => f (ix2 r k)) = fun k => f' (ix2 r' k) from funext hf]

/-- The unary matrix: entry (r, j) is entry j of  h_r · Wu + bu. -/
def unary {n H C : ℕ} (h : (⟨2, ![n, H]⟩ : Shape).Idx → EReal)
    (wu : (⟨2, ![H, C]⟩ : Shape).Idx → EReal) (bu : (⟨1, ![C]⟩ : Shape).Idx → EReal) : (⟨2, ![n, C]⟩ : Shape).Idx → EReal :=
  fun i => dense wu bu (fun k => h (ix2 (i 0) k)) (i 1)

/-- The edge matrix: entry (r, j) is entry j of  [hp_r, h_r] · We + be, the two hidden rows laid side by side. -/
def edge {n H E CC : ℕ}
    (hcat : Shape.Concatenates [(⟨2, ![n, H]⟩ : Shape), (⟨2, ![n, H]⟩ : Shape)] (⟨2, ![n, E]⟩ : Shape) 1)
    (hp h : (⟨2, ![n, H]⟩ : Shape).Idx → EReal)
    (we : (⟨2, ![E, CC]⟩ : Shape).Idx → EReal) (be : (⟨1, ![CC]⟩ : Shape).Idx → EReal) : (⟨2, ![n, CC]⟩ : Shape).Idx → EReal :=
  fun i => dense we be
    (fun k => concatenate (⟨2, ![n, E]⟩ : Shape) 1 [⟨(⟨2, ![n, H]⟩ : Shape), hp⟩, ⟨(⟨2, ![n, H]⟩ : Shape), h⟩] hcat (ix2 (i 0) k)) (i 1)

/-- The output matrix: the unary matrix and the edge matrix side by side. -/
def potentials {n H E C CC W : ℕ}
    (hcat : Shape.Concatenates [(⟨2, ![n, H]⟩ : Shape), (⟨2, ![n, H]⟩ : Shape)] (⟨2, ![n, E]⟩ : Shape) 1)
    (hout : Shape.Concatenates [(⟨2, ![n, C]⟩ : Shape), (⟨2, ![n, CC]⟩ : Shape)] (⟨2, ![n, W]⟩ : Shape) 1)
    (hp h : (⟨2, ![n, H]⟩ : Shape).Idx → EReal)
    (wu : (⟨2, ![H, C]⟩ : Shape).Idx → EReal) (bu : (⟨1, ![C]⟩ : Shape).Idx → EReal)
    (we : (⟨2, ![E, CC]⟩ : Shape).Idx → EReal) (be : (⟨1, ![CC]⟩ : Shape).Idx → EReal) : (⟨2, ![n, W]⟩ : Shape).Idx → EReal :=
  concatenate (⟨2, ![n, W]⟩ : Shape) 1
    [⟨(⟨2, ![n, C]⟩ : Shape), unary h wu bu⟩, ⟨(⟨2, ![n, CC]⟩ : Shape), edge hcat hp h we be⟩] hout

/-- ROWS OF A BLOCK: when row r of the two hidden matrices hp, h is row r' of hp', h', row r of the output matrix
    is row r' of the primed one (same weights). -/
theorem potentials_rows {n n' H E C CC W : ℕ}
    (hcat : Shape.Concatenates [(⟨2, ![n, H]⟩ : Shape), (⟨2, ![n, H]⟩ : Shape)] (⟨2, ![n, E]⟩ : Shape) 1)
    (hout : Shape.Concatenates [(⟨2, ![n, C]⟩ : Shape), (⟨2, ![n, CC]⟩ : Shape)] (⟨2, ![n, W]⟩ : Shape) 1)
    (hcat' : Shape.Concatenates [(⟨2, ![n', H]⟩ : Shape), (⟨2, ![n', H]⟩ : Shape)] (⟨2, ![n', E]⟩ : Shape) 1)
    (hout' : Shape.Concatenates [(⟨2, ![n', C]⟩ : Shape), (⟨2, ![n', CC]⟩ : Shape)] (⟨2, ![n', W]⟩ : Shape) 1)
    (hE : E = H + H) (hW : W = C + CC)
    (hp h : (⟨2, ![n, H]⟩ : Shape).Idx → EReal) (hp' h' : (⟨2, ![n', H]⟩ : Shape).Idx → EReal)
    (wu : (⟨2, ![H, C]⟩ : Shape).Idx → EReal) (bu : (⟨1, ![C]⟩ : Shape).Idx → EReal)
    (we : (⟨2, ![E, CC]⟩ : Shape).Idx → EReal) (be : (⟨1, ![CC]⟩ : Shape).Idx → EReal)
    (r : Fin n) (r' : Fin n')
    (hP : ∀ a : Fin H, hp (ix2 r a) = hp' (ix2 r' a)) (hH : ∀ a : Fin H, h (ix2 r a) = h' (ix2 r' a)) (q : Fin W) :
    potentials hcat hout hp h wu bu we be (ix2 r q) = potentials hcat' hout' hp' h' wu bu we be (ix2 r' q) := by
  unfold potentials
  by_cases hq : q.val < C
  · rw [JoinCols.pair_left _ _ hout r ⟨q.val, hq⟩ q rfl, JoinCols.pair_left _ _ hout' r' ⟨q.val, hq⟩ q rfl]
    show dense wu bu (fun k => h (ix2 r k)) ⟨q.val, hq⟩ = dense wu bu (fun k => h' (ix2 r' k)) ⟨q.val, hq⟩
    rw [show (fun k => h (ix2 r k)) = fun k => h' (ix2 r' k) from funext hH]
  · have hq' : q.val - C < CC := by have := q.isLt; omega
    have e : q.val = C + (⟨q.val - C, hq'⟩ : Fin CC).val := by show q.val = C + (q.val - C); omega
    rw [JoinCols.pair_right _ _ hout r ⟨q.val - C, hq'⟩ q e, JoinCols.pair_right _ _ hout' r' ⟨q.val - C, hq'⟩ q e]
    show dense we be (fun k => concatenate _ 1 [⟨_, hp⟩, ⟨_, h⟩] hcat (ix2 r k)) ⟨q.val - C, hq'⟩
      = dense we be (fun k => concatenate _ 1 [⟨_, hp'⟩, ⟨_, h'⟩] hcat' (ix2 r' k)) ⟨q.val - C, hq'⟩
    refine dense_congr we be _ _ (fun k => ?_) _
    exact join_rows_congr hp h hp' h' hcat hcat' hE r r' hP hH k

end Cert.TreePotentials

end
-- ==== Proof.KernelBody.lean ====
/-
  What the two kernel bodies compute on a block of rows.

  Read on the extended reals, where a change of float format is the identity, the first body sends a block of
  feature rows to the hidden matrix of that block, and the second sends a block of parent hidden rows and a block
  of hidden rows to the output matrix of that block: a matrix product into the zero accumulator is the plain sum
  over the shared axis, the bias is a vector laid along every row, and the rectifier is the maximum with zero.
-/
import proofs.«148463_j17549236372232_2_alg».proof.Proof.Gen.KernelIdeal.Skeleton
import proofs.«148463_j17549236372232_2_alg».proof.Proof.LibEdgeMlp
import proofs.«148463_j17549236372232_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx
open Idealize.ShloMosaic.EdgeMlp Cert.TreePotentials

/-- The rectifier's threshold: the real number zero as the bodies spell it. -/
abbrev zero : EReal := Ideal.ofBits .f32 0x00000000#32

/-! ## The matrix products' free axes read the result's coordinates -/

theorem d1_l0 (j : S8000x128.Idx) (q : dot_S8000x256_S256x128_S8000x128_1_0_0_1_n_n.contr.Idx) : (dot_S8000x256_S256x128_S8000x128_1_0_0_1_n_n.lhsIdx j q 0).val = (j 0).val := by
  unfold DotDims.lhsIdx
  rw [dif_neg (show ¬(0 : Fin S8000x256.rank) ∈ dot_S8000x256_S256x128_S8000x128_1_0_0_1_n_n.lhsBatch by decide), dif_pos (show (0 : Fin S8000x256.rank) ∈ dot_S8000x256_S256x128_S8000x128_1_0_0_1_n_n.lhsNonContracting by decide)]
  rfl
theorem d1_r1 (j : S8000x128.Idx) (q : dot_S8000x256_S256x128_S8000x128_1_0_0_1_n_n.contr.Idx) : (dot_S8000x256_S256x128_S8000x128_1_0_0_1_n_n.rhsIdx j q 1).val = (j 1).val := by
  unfold DotDims.rhsIdx
  rw [dif_neg (show ¬(1 : Fin S256x128.rank) ∈ dot_S8000x256_S256x128_S8000x128_1_0_0_1_n_n.rhsBatch by decide), dif_pos (show (1 : Fin S256x128.rank) ∈ dot_S8000x256_S256x128_S8000x128_1_0_0_1_n_n.rhsNonContracting by decide)]
  rfl
theorem d2_l0 (j : S8000x128.Idx) (q : dot_S8000x128_S128x128_S8000x128_1_0_0_1_n_n.contr.Idx) : (dot_S8000x128_S128x128_S8000x128_1_0_0_1_n_n.lhsIdx j q 0).val = (j 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem d2_r1 (j : S8000x128.Idx) (q : dot_S8000x128_S128x128_S8000x128_1_0_0_1_n_n.contr.Idx) : (dot_S8000x128_S128x128_S8000x128_1_0_0_1_n_n.rhsIdx j q 1).val = (j 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl
theorem de_l0 (j : S4000x256.Idx) (q : dot_S4000x256_S256x256_S4000x256_1_0_0_1_n_n.contr.Idx) : (dot_S4000x256_S256x256_S4000x256_1_0_0_1_n_n.lhsIdx j q 0).val = (j 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem de_r1 (j : S4000x256.Idx) (q : dot_S4000x256_S256x256_S4000x256_1_0_0_1_n_n.contr.Idx) : (dot_S4000x256_S256x256_S4000x256_1_0_0_1_n_n.rhsIdx j q 1).val = (j 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl
theorem du_l0 (j : S4000x16.Idx) (q : dot_S4000x128_S128x16_S4000x16_1_0_0_1_n_n.contr.Idx) : (dot_S4000x128_S128x16_S4000x16_1_0_0_1_n_n.lhsIdx j q 0).val = (j 0).val := by
  unfold DotDims.lhsIdx
  rw [dif_neg (show ¬(0 : Fin S4000x128.rank) ∈ dot_S4000x128_S128x16_S4000x16_1_0_0_1_n_n.lhsBatch by decide), dif_pos (show (0 : Fin S4000x128.rank) ∈ dot_S4000x128_S128x16_S4000x16_1_0_0_1_n_n.lhsNonContracting by decide)]
  rfl
theorem du_r1 (j : S4000x16.Idx) (q : dot_S4000x128_S128x16_S4000x16_1_0_0_1_n_n.contr.Idx) : (dot_S4000x128_S128x16_S4000x16_1_0_0_1_n_n.rhsIdx j q 1).val = (j 1).val := by
  unfold DotDims.rhsIdx
  rw [dif_neg (show ¬(1 : Fin S128x16.rank) ∈ dot_S4000x128_S128x16_S4000x16_1_0_0_1_n_n.rhsBatch by decide), dif_pos (show (1 : Fin S128x16.rank) ∈ dot_S4000x128_S128x16_S4000x16_1_0_0_1_n_n.rhsNonContracting by decide)]
  rfl

/-! ## The first body: a block of feature rows to its hidden matrix -/

theorem stage1_block (x0 : Vec Ideal S8000x256 .f32) (x1 : Vec Ideal S256x128 .bf16) (x2 : Vec Ideal S128 .f32)
    (x3 : Vec Ideal S128x128 .bf16) (x4 : Vec Ideal S128 .f32) :
    k0_pay1 (F := Ideal) x0 x1 x2 x3 x4 = hidden zero x0 x1 x2 x3 x4 := by
  funext i
  obtain ⟨r, j, rfl⟩ : ∃ (r : Fin 8000) (j : Fin 128), i = ix2 r j := ⟨i 0, i 1, eq_ix2 i⟩
  unfold k0_pay1
  rw [shapeCast_self, shapeCast_self]
  show max (_ : EReal) zero = max (dense x3 x4 (fun k => max (dense x1 x2 (fun k' => x0 (ix2 r k')) k) zero) j) zero
  refine congrArg (fun t => max t zero) ?_
  refine (matmul_bias_apply dot_S8000x128_S128x128_S8000x128_1_0_0_1_n_n rfl rfl rfl rfl d2_l0 d2_r1 none _ x3 x4 _ _ r j).trans ?_
  refine dense_congr x3 x4 _ _ (fun k => ?_) j
  show max (_ : EReal) zero = max (dense x1 x2 (fun k' => x0 (ix2 r k')) k) zero
  refine congrArg (fun t => max t zero) ?_
  exact matmul_bias_apply dot_S8000x256_S256x128_S8000x128_1_0_0_1_n_n rfl rfl rfl rfl d1_l0 d1_r1 none _ x1 x2 _ _ r k

/-! ## The second body: a block of parent rows and of hidden rows to its output matrix -/

theorem stage2_block (x0 x1 : Vec Ideal S4000x128 .bf16) (x2 : Vec Ideal S128x16 .bf16) (x3 : Vec Ideal S16 .f32)
    (x4 : Vec Ideal S256x256 .bf16) (x5 : Vec Ideal S256 .f32) :
    k1_pay1 (F := Ideal) x0 x1 x2 x4 x5 x3
      = potentials concatenates_S4000x128_S4000x128_S4000x256_d1 concatenates_S4000x16_S4000x256_S4000x272_d1 x0 x1 x2 x3 x4 x5 := by
  unfold k1_pay1 potentials
  dsimp only
  rw [shapeCast_self, shapeCast_self, shapeCast_self, shapeCast_self]
  refine congrArg₂ (fun a b => concatenate S4000x272 1 [⟨S4000x16, a⟩, ⟨S4000x256, b⟩] concatenates_S4000x16_S4000x256_S4000x272_d1) ?_ ?_
  · funext i
    obtain ⟨r, j, rfl⟩ : ∃ (r : Fin 4000) (j : Fin 16), i = ix2 r j := ⟨i 0, i 1, eq_ix2 i⟩
    exact matmul_bias_apply dot_S4000x128_S128x16_S4000x16_1_0_0_1_n_n rfl rfl rfl rfl du_l0 du_r1 none x1 x2 x3 _ _ r j
  · funext i
    obtain ⟨r, j, rfl⟩ : ∃ (r : Fin 4000) (j : Fin 256), i = ix2 r j := ⟨i 0, i 1, eq_ix2 i⟩
    exact matmul_bias_apply dot_S4000x256_S256x256_S4000x256_1_0_0_1_n_n rfl rfl rfl rfl de_l0 de_r1 none _ x4 x5 _ _ r j

end Cert.KernelIdeal.Body

end
-- ==== Proof.KernelBlocks.lean ====
/-
  From blocks of rows to whole matrices, for each of the two grids.

  The first grid walks the feature matrix 8000 rows at a time; at point t the body reads rows 8000·t … 8000·t + 7999
  and writes the same rows of the hidden matrix, and every weight window is the whole weight array at every point.
  Since a hidden row depends on its own feature row only, what point t writes is the block of rows of the hidden
  matrix of ALL rows; the 50 blocks tile the 400000 rows, so the array ends holding that matrix.

  The second grid walks the parent-row matrix and the hidden matrix 4000 rows at a time and writes the same rows of
  the output matrix; the same argument over its 100 points gives the output matrix of all rows.

  Both facts hold for whatever the arrays contain when the grid is entered.
-/
import proofs.«148463_j17549236372232_2_alg».proof.Proof.Gen.KernelIdeal.Frame
import proofs.«148463_j17549236372232_2_alg».proof.Proof.KernelBody
import proofs.«148463_j17549236372232_2_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Body Cert.TreePotentials Idealize.ShloMosaic.ValueIdx

-- the contents of the TensorCore's buffers when a grid is entered
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The first grid -/

/-- The block indices over the grid: the feature window and the hidden window move one block of rows per point,
    the weight windows stay at block zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The feature window's block at point t is rows 8000·t … of the feature array. -/
theorem rows0_0 (c : Dev nD) (t : Fin cfg0.N) (x : S8000x256.Idx) (k : S400000x256.Idx)
    (hk0 : (k 0).val = 8000 * t.val + (x 0).val) (hk1 : (k 1).val = (x 1).val) :
    (iblk0 V c 0 t : Vec Ideal S8000x256 .f32) x = (V c main_arg0 : S400000x256.Idx → EReal) k := by
  obtain ⟨e0, e1, -⟩ := idx0 t
  unfold iblk0
  rw [View.read_apply]
  show V c main_arg0 _ = V c main_arg0 _
  refine congrArg (V c main_arg0) (funext fun a => Fin.ext ?_)
  match a with
  | ⟨0, _⟩ => show win0_0.index t 0 * 8000 + 1 * (x 0).val = (k 0).val; rw [e0, hk0]; omega
  | ⟨1, _⟩ => show win0_0.index t 1 * 256 + 1 * (x 1).val = (k 1).val; rw [e1, hk1]; omega

/-- Each weight window's block is the whole weight array, at every point. -/
theorem whole0_1 (c : Dev nD) (t : Fin cfg0.N) : (iblk0 V c 1 t : Vec Ideal S256x128 .bf16) = V c main_v0 := by
  obtain ⟨-, -, e0, e1, -⟩ := idx0 t
  funext x
  unfold iblk0
  rw [View.read_apply]
  show V c main_v0 _ = V c main_v0 x
  refine congrArg (V c main_v0) (funext fun a => Fin.ext ?_)
  match a with
  | ⟨0, _⟩ => show win0_1.index t 0 * 256 + 1 * (x 0).val = (x 0).val; rw [e0]; omega
  | ⟨1, _⟩ => show win0_1.index t 1 * 128 + 1 * (x 1).val = (x 1).val; rw [e1]; omega
theorem whole0_2 (c : Dev nD) (t : Fin cfg0.N) : (iblk0 V c 2 t : Vec Ideal S128 .f32) = V c main_arg3 := by
  obtain ⟨-, -, -, -, e0, -⟩ := idx0 t
  funext x
  unfold iblk0
  rw [View.read_apply]
  show V c main_arg3 _ = V c main_arg3 x
  refine congrArg (V c main_arg3) (funext fun a => Fin.ext ?_)
  match a with
  | ⟨0, _⟩ => show win0_2.index t 0 * 128 + 1 * (x 0).val = (x 0).val; rw [e0]; omega
theorem whole0_3 (c : Dev nD) (t : Fin cfg0.N) : (iblk0 V c 3 t : Vec Ideal S128x128 .bf16) = V c main_v1 := by
  obtain ⟨-, -, -, -, -, e0, e1, -⟩ := idx0 t
  funext x
  unfold iblk0
  rw [View.read_apply]
  show V c main_v1 _ = V c main_v1 x
  refine congrArg (V c main_v1) (funext fun a => Fin.ext ?_)
  match a with
  | ⟨0, _⟩ => show win0_3.index t 0 * 128 + 1 * (x 0).val = (x 0).val; rw [e0]; omega
  | ⟨1, _⟩ => show win0_3.index t 1 * 128 + 1 * (x 1).val = (x 1).val; rw [e1]; omega
theorem whole0_4 (c : Dev nD) (t : Fin cfg0.N) : (iblk0 V c 4 t : Vec Ideal S128 .f32) = V c main_arg5 := by
  obtain ⟨-, -, -, -, -, -, -, e0, -⟩ := idx0 t
  funext x
  unfold iblk0
  rw [View.read_apply]
  show V c main_arg5 _ = V c main_arg5 x
  refine congrArg (V c main_arg5) (funext fun a => Fin.ext ?_)
  match a with
  | ⟨0, _⟩ => show win0_4.index t 0 * 128 + 1 * (x 0).val = (x 0).val; rw [e0]; omega

/-- The hidden matrix of all rows, of the arrays as the first grid finds them. -/
abbrev hiddenAll (c : Dev nD) : S400000x128.Idx → EReal :=
  hidden zero (V c main_arg0 : S400000x256.Idx → EReal) (V c main_v0 : S256x128.Idx → EReal) (V c main_arg3 : S128.Idx → EReal)
    (V c main_v1 : S128x128.Idx → EReal) (V c main_arg5 : S128.Idx → EReal)

/-- What point t writes back is its block of rows of the hidden matrix of all rows. -/
theorem flushed0 (c : Dev nD) (t : Fin cfg0.N) :
    (dat0 V c).flushed 5 t = ((cfg0.win 5).blk t).view.read (Elt Ideal) (hiddenAll V c) := by
  show (cfg0.win 5).cut (grid0.coords t) ((dat0 V c).after 5 t) = _
  rw [after0_5]
  unfold out0_5
  rw [View.canon_unit_zero hz2]
  simp only [View.ld_unit_zero (S := S8000x256) hz2, View.ld_unit_zero (S := S256x128) hz2, View.ld_unit_zero (S := S128x128) hz2,
    View.ld_unit_zero (S := S128) hz1]
  rw [stage1_block, whole0_1, whole0_2, whole0_3, whole0_4]
  obtain ⟨-, -, -, -, -, -, -, -, e0, e1⟩ := idx0 t
  have ht : t.val < 50 := by have h := t.isLt; have hN : cfg0.N = 50 := N_0; omega
  funext y
  obtain ⟨r, j, rfl⟩ : ∃ (r : Fin 8000) (j : Fin 128), y = ix2 r j := ⟨y 0, y 1, eq_ix2 y⟩
  have he : ((cfg0.win 5).blk t).view.emb (ix2 r j) = (ix2 (⟨8000 * t.val + r.val, by omega⟩ : Fin 400000) j : S400000x128.Idx) :=
    funext fun a => Fin.ext (by
      match a with
      | ⟨0, _⟩ => show win0_5.index t 0 * 8000 + 1 * r.val = 8000 * t.val + r.val; rw [e0]; omega
      | ⟨1, _⟩ => show win0_5.index t 1 * 128 + 1 * j.val = j.val; rw [e1]; omega)
  show hidden zero (iblk0 V c 0 t : Vec Ideal S8000x256 .f32) _ _ _ _ (ix2 r j) = hiddenAll V c (((cfg0.win 5).blk t).view.emb (ix2 r j))
  rw [he]
  exact hidden_rows zero _ _ _ _ _ _ r _ (fun k => rows0_0 V c t (ix2 r k) (ix2 _ k) rfl rfl) j

/-- An index of the hidden array is in point t's block iff each coordinate is in the block's range. -/
theorem mem_blk0 (t : Fin cfg0.N) (i : S400000x128.Idx) :
    i ∈ ((cfg0.win 5).blk t).view.set ↔ ∀ a : Fin 2, win0_5.index t a * S8000x128.size a ≤ (i a).val ∧ (i a).val < win0_5.index t a * S8000x128.size a + S8000x128.size a := by
  show i ∈ ((View.whole main_v4).slice (win0_5.rect t)).set ↔ _
  rw [View.set_slice_whole, Rect.mem_set_unit]
  exact Iff.rfl

/-- The 50 blocks tile the 400000 rows: row r is in the block of point r / 8000. -/
theorem cover0 (i : S400000x128.Idx) : ∃ t : Fin cfg0.N, (cfg0.win 5).flush t = true ∧ i ∈ ((cfg0.win 5).blk t).view.set := by
  have h0 : (i 0).val < 400000 := (i 0).isLt
  have h1 : (i 1).val < 128 := (i 1).isLt
  have hN : cfg0.N = 50 := N_0
  let t : Fin cfg0.N := ⟨(i 0).val / 8000, by rw [hN]; omega⟩
  obtain ⟨-, -, -, -, -, -, -, -, e0, e1⟩ := idx0 t
  have e0' : win0_5.index t (0 : Fin 2) = (i 0).val / 8000 := e0
  refine ⟨t, flush0_5 t, ?_⟩
  rw [mem_blk0]
  intro a
  match a with
  | ⟨0, _⟩ => show win0_5.index t 0 * 8000 ≤ (i 0).val ∧ (i 0).val < win0_5.index t 0 * 8000 + 8000; rw [e0']; omega
  | ⟨1, _⟩ => show win0_5.index t 1 * 128 ≤ (i 1).val ∧ (i 1).val < win0_5.index t 1 * 128 + 128; rw [e1]; omega

/-- THE HIDDEN ARRAY after the first grid: the hidden matrix of all rows. -/
theorem final0 (c : Dev nD) : (dat0 V c).arrAt 5 cfg0.N = hiddenAll V c :=
  (dat0 V c).arrAt_eq_of_cover 5 (hiddenAll V c) (fun t _ => flushed0 V c t) cover0

/-! ## The second grid -/

/-- The block indices over the grid: the two row windows and the output window move one block of rows per point,
    the weight windows stay at block zero. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The parent-row window's block at point t is rows 4000·t … of the parent-row array. -/
theorem rows1_0 (c : Dev nD) (t : Fin cfg1.N) (x : S4000x128.Idx) (k : S400000x128.Idx)
    (hk0 : (k 0).val = 4000 * t.val + (x 0).val) (hk1 : (k 1).val = (x 1).val) :
    (iblk1 V c 0 t : Vec Ideal S4000x128 .bf16) x = (V c main_v11 : S400000x128.Idx → EReal) k := by
  obtain ⟨e0, e1, -⟩ := idx1 t
  unfold iblk1
  rw [View.read_apply]
  show V c main_v11 _ = V c main_v11 _
  refine congrArg (V c main_v11) (funext fun a => Fin.ext ?_)
  match a with
  | ⟨0, _⟩ => show win1_0.index t 0 * 4000 + 1 * (x 0).val = (k 0).val; rw [e0, hk0]; omega
  | ⟨1, _⟩ => show win1_0.index t 1 * 128 + 1 * (x 1).val = (k 1).val; rw [e1, hk1]; omega

/-- The hidden-row window's block at point t is rows 4000·t … of the hidden array. -/
theorem rows1_1 (c : Dev nD) (t : Fin cfg1.N) (x : S4000x128.Idx) (k : S400000x128.Idx)
    (hk0 : (k 0).val = 4000 * t.val + (x 0).val) (hk1 : (k 1).val = (x 1).val) :
    (iblk1 V c 1 t : Vec Ideal S4000x128 .bf16) x = (V c main_v4 : S400000x128.Idx → EReal) k := by
  obtain ⟨-, -, e0, e1, -⟩ := idx1 t
  unfold iblk1
  rw [View.read_apply]
  show V c main_v4 _ = V c main_v4 _
  refine congrArg (V c main_v4) (funext fun a => Fin.ext ?_)
  match a with
  | ⟨0, _⟩ => show win1_1.index t 0 * 4000 + 1 * (x 0).val = (k 0).val; rw [e0, hk0]; omega
  | ⟨1, _⟩ => show win1_1.index t 1 * 128 + 1 * (x 1).val = (k 1).val; rw [e1, hk1]; omega

/-- Each weight window's block is the whole weight array, at every point. -/
theorem whole1_2 (c : Dev nD) (t : Fin cfg1.N) : (iblk1 V c 2 t : Vec Ideal S128x16 .bf16) = V c main_v2 := by
  obtain ⟨-, -, -, -, e0, e1, -⟩ := idx1 t
  funext x
  unfold iblk1
  rw [View.read_apply]
  show V c main_v2 _ = V c main_v2 x
  refine congrArg (V c main_v2) (funext fun a => Fin.ext ?_)
  match a with
  | ⟨0, _⟩ => show win1_2.index t 0 * 128 + 1 * (x 0).val = (x 0).val; rw [e0]; omega
  | ⟨1, _⟩ => show win1_2.index t 1 * 16 + 1 * (x 1).val = (x 1).val; rw [e1]; omega
theorem whole1_3 (c : Dev nD) (t : Fin cfg1.N) : (iblk1 V c 3 t : Vec Ideal S16 .f32) = V c main_arg7 := by
  obtain ⟨-, -, -, -, -, -, e0, -⟩ := idx1 t
  funext x
  unfold iblk1
  rw [View.read_apply]
  show V c main_arg7 _ = V c main_arg7 x
  refine congrArg (V c main_arg7) (funext fun a => Fin.ext ?_)
  match a with
  | ⟨0, _⟩ => show win1_3.index t 0 * 16 + 1 * (x 0).val = (x 0).val; rw [e0]; omega
theorem whole1_4 (c : Dev nD) (t : Fin cfg1.N) : (iblk1 V c 4 t : Vec Ideal S256x256 .bf16) = V c main_v3 := by
  obtain ⟨-, -, -, -, -, -, -, e0, e1, -⟩ := idx1 t
  funext x
  unfold iblk1
  rw [View.read_apply]
  show V c main_v3 _ = V c main_v3 x
  refine congrArg (V c main_v3) (funext fun a => Fin.ext ?_)
  match a with
  | ⟨0, _⟩ => show win1_4.index t 0 * 256 + 1 * (x 0).val = (x 0).val; rw [e0]; omega
  | ⟨1, _⟩ => show win1_4.index t 1 * 256 + 1 * (x 1).val = (x 1).val; rw [e1]; omega
theorem whole1_5 (c : Dev nD) (t : Fin cfg1.N) : (iblk1 V c 5 t : Vec Ideal S256 .f32) = V c main_arg9 := by
  obtain ⟨-, -, -, -, -, -, -, -, -, e0, -⟩ := idx1 t
  funext x
  unfold iblk1
  rw [View.read_apply]
  show V c main_arg9 _ = V c main_arg9 x
  refine congrArg (V c main_arg9) (funext fun a => Fin.ext ?_)
  match a with
  | ⟨0, _⟩ => show win1_5.index t 0 * 256 + 1 * (x 0).val = (x 0).val; rw [e0]; omega

section
-- two matrices of 400000 rows laid side by side: the shapes add up
variable (hcW : Shape.Concatenates [(⟨2, ![400000, 128]⟩ : Shape), (⟨2, ![400000, 128]⟩ : Shape)] (⟨2, ![400000, 256]⟩ : Shape) 1)
  (hoW : Shape.Concatenates [(⟨2, ![400000, 16]⟩ : Shape), (⟨2, ![400000, 256]⟩ : Shape)] (⟨2, ![400000, 272]⟩ : Shape) 1)

/-- The output matrix of all rows, of the arrays as the second grid finds them. -/
abbrev outAll (c : Dev nD) : S400000x272.Idx → EReal :=
  potentials hcW hoW (V c main_v11 : S400000x128.Idx → EReal) (V c main_v4 : S400000x128.Idx → EReal)
    (V c main_v2 : S128x16.Idx → EReal) (V c main_arg7 : S16.Idx → EReal) (V c main_v3 : S256x256.Idx → EReal) (V c main_arg9 : S256.Idx → EReal)

/-- What point t writes back is its block of rows of the output matrix of all rows. -/
theorem flushed1 (c : Dev nD) (t : Fin cfg1.N) :
    (dat1 V c).flushed 6 t = ((cfg1.win 6).blk t).view.read (Elt Ideal) (outAll V hcW hoW c) := by
  show (cfg1.win 6).cut (grid1.coords t) ((dat1 V c).after 6 t) = _
  rw [after1_6]
  unfold out1_6
  rw [View.canon_unit_zero hz2]
  simp only [View.ld_unit_zero (S := S4000x128) hz2, View.ld_unit_zero (S := S128x16) hz2, View.ld_unit_zero (S := S256x256) hz2,
    View.ld_unit_zero (S := S256) hz1, View.ld_unit_zero (S := S16) hz1]
  rw [stage2_block, whole1_2, whole1_3, whole1_4, whole1_5]
  obtain ⟨-, -, -, -, -, -, -, -, -, -, e0, e1⟩ := idx1 t
  have ht : t.val < 100 := by have h := t.isLt; have hN : cfg1.N = 100 := N_1; omega
  funext y
  obtain ⟨r, q, rfl⟩ : ∃ (r : Fin 4000) (q : Fin 272), y = ix2 r q := ⟨y 0, y 1, eq_ix2 y⟩
  have he : ((cfg1.win 6).blk t).view.emb (ix2 r q) = (ix2 (⟨4000 * t.val + r.val, by omega⟩ : Fin 400000) q : S400000x272.Idx) :=
    funext fun a => Fin.ext (by
      match a with
      | ⟨0, _⟩ => show win1_6.index t 0 * 4000 + 1 * r.val = 4000 * t.val + r.val; rw [e0]; omega
      | ⟨1, _⟩ => show win1_6.index t 1 * 272 + 1 * q.val = q.val; rw [e1]; omega)
  show potentials concatenates_S4000x128_S4000x128_S4000x256_d1 concatenates_S4000x16_S4000x256_S4000x272_d1
      (iblk1 V c 0 t : Vec Ideal S4000x128 .bf16) (iblk1 V c 1 t : Vec Ideal S4000x128 .bf16) _ _ _ _ (ix2 r q)
    = outAll V hcW hoW c (((cfg1.win 6).blk t).view.emb (ix2 r q))
  rw [he]
  exact potentials_rows concatenates_S4000x128_S4000x128_S4000x256_d1 concatenates_S4000x16_S4000x256_S4000x272_d1 hcW hoW rfl rfl _ _ _ _ _ _ _ _ r _
    (fun a => rows1_0 V c t (ix2 r a) (ix2 _ a) rfl rfl) (fun a => rows1_1 V c t (ix2 r a) (ix2 _ a) rfl rfl) q

/-- An index of the result array is in point t's block iff each coordinate is in the block's range. -/
theorem mem_blk1 (t : Fin cfg1.N) (i : S400000x272.Idx) :
    i ∈ ((cfg1.win 6).blk t).view.set ↔ ∀ a : Fin 2, win1_6.index t a * S4000x272.size a ≤ (i a).val ∧ (i a).val < win1_6.index t a * S4000x272.size a + S4000x272.size a := by
  show i ∈ ((View.whole main_v12).slice (win1_6.rect t)).set ↔ _
  rw [View.set_slice_whole, Rect.mem_set_unit]
  exact Iff.rfl

/-- The 100 blocks tile the 400000 rows: row r is in the block of point r / 4000. -/
theorem cover1 (i : S400000x272.Idx) : ∃ t : Fin cfg1.N, (cfg1.win 6).flush t = true ∧ i ∈ ((cfg1.win 6).blk t).view.set := by
  have h0 : (i 0).val < 400000 := (i 0).isLt
  have h1 : (i 1).val < 272 := (i 1).isLt
  have hN : cfg1.N = 100 := N_1
  let t : Fin cfg1.N := ⟨(i 0).val / 4000, by rw [hN]; omega⟩
  obtain ⟨-, -, -, -, -, -, -, -, -, -, e0, e1⟩ := idx1 t
  have e0' : win1_6.index t (0 : Fin 2) = (i 0).val / 4000 := e0
  refine ⟨t, flush1_6 t, ?_⟩
  rw [mem_blk1]
  intro a
  match a with
  | ⟨0, _⟩ => show win1_6.index t 0 * 4000 ≤ (i 0).val ∧ (i 0).val < win1_6.index t 0 * 4000 + 4000; rw [e0']; omega
  | ⟨1, _⟩ => show win1_6.index t 1 * 272 ≤ (i 1).val ∧ (i 1).val < win1_6.index t 1 * 272 + 272; rw [e1]; omega

/-- THE RESULT ARRAY after the second grid: the output matrix of all rows. -/
theorem final1 (c : Dev nD) : (dat1 V c).arrAt 6 cfg1.N = outAll V hcW hoW c :=
  (dat1 V c).arrAt_eq_of_cover 6 (outAll V hcW hoW c) (fun t _ => flushed1 V hcW hoW c t) cover1

end

end Cert.KernelIdeal.Blocks

end
-- ==== Proof.KernelRun.lean ====
/-
  The whole run of the program with two grids, with its result array named.

  The program converts four weight arrays, runs the first grid (the hidden array), computes each node's parent
  index (a negative index counted from the end) and gathers the parent's hidden row for every node, then runs the
  second grid (the result array). Every execution terminates without a fault, the arguments end unchanged, and the
  result array ends holding what the second grid leaves: the output matrix of all rows, of the gathered parent
  rows and the hidden matrix of all rows, with the weights as launched (a change of float format is the identity
  on the extended reals).
-/
import proofs.«148463_j17549236372232_2_alg».proof.Proof.Gen.KernelIdeal.Frame
import proofs.«148463_j17549236372232_2_alg».proof.Proof.KernelBlocks
import proofs.«148463_j17549236372232_2_alg».proof.Proof.Spec
import Idealize.ShloMosaic.Lib.StableHlo.Run
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array ends at the contents the last
    segment leaves it with, and the argument arrays end as launched. -/
theorem run_out : θ_run defs (onTc (τ := τ) (main (F := F))) ⟨m, fun _ => 0, ρ⟩ (fun r => ∀ c : Dev nD,
      r.2.mem ((c.tc : Thread nD τ).loc main_v12) = W4 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v12 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Run

section Values

open Cert.KernelIdeal.Body Cert.KernelIdeal.Blocks Cert.TreePotentials

variable (m : (ℓ : Loc nD τ sig) → Buf (Elt Ideal) ℓ) (ρ : Dev nD → PrngReg)

/-! ## The arrays as the first grid finds them -/

theorem v1_arg0 (c : Dev nD) : V1 m ρ c main_arg0 = m ((c : Thread nD τ).loc main_arg0) := by
  show StableHlo.after hostOps0 (W0 m ρ c) (Proc.devRef .tc main_arg0) = _
  after_results
  try rfl
theorem v1_v0 (c : Dev nD) : V1 m ρ c main_v0 = m ((c : Thread nD τ).loc main_arg2) := by
  show StableHlo.after hostOps0 (W0 m ρ c) (Proc.devRef .tc main_v0) = _
  after_results
  try rfl
theorem v1_arg3 (c : Dev nD) : V1 m ρ c main_arg3 = m ((c : Thread nD τ).loc main_arg3) := by
  show StableHlo.after hostOps0 (W0 m ρ c) (Proc.devRef .tc main_arg3) = _
  after_results
  try rfl
theorem v1_v1 (c : Dev nD) : V1 m ρ c main_v1 = m ((c : Thread nD τ).loc main_arg4) := by
  show StableHlo.after hostOps0 (W0 m ρ c) (Proc.devRef .tc main_v1) = _
  after_results
  try rfl
theorem v1_arg5 (c : Dev nD) : V1 m ρ c main_arg5 = m ((c : Thread nD τ).loc main_arg5) := by
  show StableHlo.after hostOps0 (W0 m ρ c) (Proc.devRef .tc main_arg5) = _
  after_results
  try rfl

/-! ## The arrays the first grid does not touch, after it -/

theorem w1_arg1 (c : Dev nD) : W1 m ρ c (Proc.devRef .tc main_arg1) = m ((c : Thread nD τ).loc main_arg1) := by
  show StableHlo.after hostOps0 (W0 m ρ c) (Proc.devRef .tc main_arg1) = _
  after_results
  try rfl
theorem w1_v2 (c : Dev nD) : W1 m ρ c (Proc.devRef .tc main_v2) = m ((c : Thread nD τ).loc main_arg6) := by
  show StableHlo.after hostOps0 (W0 m ρ c) (Proc.devRef .tc main_v2) = _
  after_results
  try rfl
theorem w1_arg7 (c : Dev nD) : W1 m ρ c (Proc.devRef .tc main_arg7) = m ((c : Thread nD τ).loc main_arg7) := by
  show StableHlo.after hostOps0 (W0 m ρ c) (Proc.devRef .tc main_arg7) = _
  after_results
  try rfl
theorem w1_v3 (c : Dev nD) : W1 m ρ c (Proc.devRef .tc main_v3) = m ((c : Thread nD τ).loc main_arg8) := by
  show StableHlo.after hostOps0 (W0 m ρ c) (Proc.devRef .tc main_v3) = _
  after_results
  try rfl
theorem w1_arg9 (c : Dev nD) : W1 m ρ c (Proc.devRef .tc main_arg9) = m ((c : Thread nD τ).loc main_arg9) := by
  show StableHlo.after hostOps0 (W0 m ρ c) (Proc.devRef .tc main_arg9) = _
  after_results
  try rfl

/-- The hidden array after the first grid: the hidden matrix of all rows of the launched arrays. -/
theorem w2_v4 (c : Dev nD) : W2 m ρ c (Proc.devRef .tc main_v4)
    = hidden zero (m ((c : Thread nD τ).loc main_arg0) : S400000x256.Idx → EReal) (m ((c : Thread nD τ).loc main_arg2) : S256x128.Idx → EReal)
        (m ((c : Thread nD τ).loc main_arg3) : S128.Idx → EReal) (m ((c : Thread nD τ).loc main_arg4) : S128x128.Idx → EReal) (m ((c : Thread nD τ).loc main_arg5) : S128.Idx → EReal) := by
  refine (W2_arr m ρ c 5).trans ((final0 (V1 m ρ) c).trans ?_)
  show hidden zero (V1 m ρ c main_arg0 : S400000x256.Idx → EReal) (V1 m ρ c main_v0 : S256x128.Idx → EReal)
    (V1 m ρ c main_arg3 : S128.Idx → EReal) (V1 m ρ c main_v1 : S128x128.Idx → EReal) (V1 m ρ c main_arg5 : S128.Idx → EReal) = _
  rw [v1_arg0, v1_v0, v1_arg3, v1_v1, v1_arg5]

/-! ## The arrays as the second grid finds them -/

/-- Each node's parent index as the gather reads it: a negative index counted from the end, set under a unit axis. -/
abbrev parentIdx (a1 : S400000.Idx → BitVec 32) : S400000x1.Idx → BitVec 32 :=
  broadcastInDim S400000x1 ![0] bcast_S400000_S400000x1_0
    (select (cmpi .slt a1 (broadcastInDim S400000 ![] bcast_S_S400000 (constantI S_ 32 0#32)))
      (addi a1 (broadcastInDim S400000 ![] bcast_S_S400000 (constantI S_ 32 400000#32))) a1)

theorem v3_v11 (c : Dev nD) : V3 m ρ c main_v11
    = Host.gather gather_S400000x128_S400000x1_S400000x128_1_0_n_n_0_1_1128 (W2 m ρ c (Proc.devRef .tc main_v4) : S400000x128.Idx → EReal)
        (parentIdx (W2 m ρ c (Proc.devRef .tc main_arg1))) := by
  show StableHlo.after hostOps1 (W2 m ρ c) (Proc.devRef .tc main_v11) = _
  after_results
  try rfl
theorem v3_v4 (c : Dev nD) : V3 m ρ c main_v4 = W2 m ρ c (Proc.devRef .tc main_v4) := by
  show StableHlo.after hostOps1 (W2 m ρ c) (Proc.devRef .tc main_v4) = _
  after_results
  try rfl
theorem v3_v2 (c : Dev nD) : V3 m ρ c main_v2 = W2 m ρ c (Proc.devRef .tc main_v2) := by
  show StableHlo.after hostOps1 (W2 m ρ c) (Proc.devRef .tc main_v2) = _
  after_results
  try rfl
theorem v3_arg7 (c : Dev nD) : V3 m ρ c main_arg7 = W2 m ρ c (Proc.devRef .tc main_arg7) := by
  show StableHlo.after hostOps1 (W2 m ρ c) (Proc.devRef .tc main_arg7) = _
  after_results
  try rfl
theorem v3_v3 (c : Dev nD) : V3 m ρ c main_v3 = W2 m ρ c (Proc.devRef .tc main_v3) := by
  show StableHlo.after hostOps1 (W2 m ρ c) (Proc.devRef .tc main_v3) = _
  after_results
  try rfl
theorem v3_arg9 (c : Dev nD) : V3 m ρ c main_arg9 = W2 m ρ c (Proc.devRef .tc main_arg9) := by
  show StableHlo.after hostOps1 (W2 m ρ c) (Proc.devRef .tc main_arg9) = _
  after_results
  try rfl

/-! ## The arrays the second grid reads besides the hidden array, walked back to the launch -/

theorem w2_arg1 (c : Dev nD) : W2 m ρ c (Proc.devRef .tc main_arg1) = m ((c : Thread nD τ).loc main_arg1) :=
  (W2_of_ne m ρ c main_arg1 (by decide)).trans (w1_arg1 m ρ c)
theorem w2_v2 (c : Dev nD) : W2 m ρ c (Proc.devRef .tc main_v2) = m ((c : Thread nD τ).loc main_arg6) :=
  (W2_of_ne m ρ c main_v2 (by decide)).trans (w1_v2 m ρ c)
theorem w2_arg7 (c : Dev nD) : W2 m ρ c (Proc.devRef .tc main_arg7) = m ((c : Thread nD τ).loc main_arg7) :=
  (W2_of_ne m ρ c main_arg7 (by decide)).trans (w1_arg7 m ρ c)
theorem w2_v3 (c : Dev nD) : W2 m ρ c (Proc.devRef .tc main_v3) = m ((c : Thread nD τ).loc main_arg8) :=
  (W2_of_ne m ρ c main_v3 (by decide)).trans (w1_v3 m ρ c)
theorem w2_arg9 (c : Dev nD) : W2 m ρ c (Proc.devRef .tc main_arg9) = m ((c : Thread nD τ).loc main_arg9) :=
  (W2_of_ne m ρ c main_arg9 (by decide)).trans (w1_arg9 m ρ c)

/-- THE RESULT ARRAY after the run: the output matrix of all rows — of the parent rows gathered from the hidden
    matrix of all rows, of that hidden matrix, and of the launched weights. -/
theorem out_eq
    (hcW : Shape.Concatenates [(⟨2, ![400000, 128]⟩ : Shape), (⟨2, ![400000, 128]⟩ : Shape)] (⟨2, ![400000, 256]⟩ : Shape) 1)
    (hoW : Shape.Concatenates [(⟨2, ![400000, 16]⟩ : Shape), (⟨2, ![400000, 256]⟩ : Shape)] (⟨2, ![400000, 272]⟩ : Shape) 1)
    (c : Dev nD) :
    W4 m ρ c (Proc.devRef .tc main_v12)
      = potentials hcW hoW
          (Host.gather gather_S400000x128_S400000x1_S400000x128_1_0_n_n_0_1_1128
            (hidden zero (m ((c : Thread nD τ).loc main_arg0) : S400000x256.Idx → EReal) (m ((c : Thread nD τ).loc main_arg2) : S256x128.Idx → EReal)
              (m ((c : Thread nD τ).loc main_arg3) : S128.Idx → EReal) (m ((c : Thread nD τ).loc main_arg4) : S128x128.Idx → EReal) (m ((c : Thread nD τ).loc main_arg5) : S128.Idx → EReal))
            (parentIdx (m ((c : Thread nD τ).loc main_arg1))))
          (hidden zero (m ((c : Thread nD τ).loc main_arg0) : S400000x256.Idx → EReal) (m ((c : Thread nD τ).loc main_arg2) : S256x128.Idx → EReal)
            (m ((c : Thread nD τ).loc main_arg3) : S128.Idx → EReal) (m ((c : Thread nD τ).loc main_arg4) : S128x128.Idx → EReal) (m ((c : Thread nD τ).loc main_arg5) : S128.Idx → EReal))
          (m ((c : Thread nD τ).loc main_arg6) : S128x16.Idx → EReal) (m ((c : Thread nD τ).loc main_arg7) : S16.Idx → EReal)
          (m ((c : Thread nD τ).loc main_arg8) : S256x256.Idx → EReal) (m ((c : Thread nD τ).loc main_arg9) : S256.Idx → EReal) := by
  refine (W4_arr m ρ c 6).trans ((final1 (V3 m ρ) hcW hoW c).trans ?_)
  show potentials hcW hoW (V3 m ρ c main_v11 : S400000x128.Idx → EReal) (V3 m ρ c main_v4 : S400000x128.Idx → EReal)
    (V3 m ρ c main_v2 : S128x16.Idx → EReal) (V3 m ρ c main_arg7 : S16.Idx → EReal)
    (V3 m ρ c main_v3 : S256x256.Idx → EReal) (V3 m ρ c main_arg9 : S256.Idx → EReal) = _
  rw [v3_v11, v3_v4, v3_v2, v3_arg7, v3_v3, v3_arg9, w2_v4, w2_arg1, w2_v2, w2_arg7, w2_v3, w2_arg9]

end Values

end Cert.KernelIdeal.Whole

end
-- ==== Proof.Reference.lean ====
/-
  The reference computes the same matrices, on whole arrays.

  Its hidden array is the hidden matrix of all rows: each of its two layers is a dot_general plus a bias vector
  spread over the rows, followed by the maximum with the zero constant. Its result is the output matrix of all
  rows, of the hidden matrix and of the parent rows it gathers from the hidden matrix: the unary part and the
  edge part are again a dot_general plus a spread bias, laid side by side.
-/
import proofs.«148463_j17549236372232_2_alg».proof.Proof.Gen.ReferenceIdeal.Read
import proofs.«148463_j17549236372232_2_alg».proof.Proof.LibEdgeMlp
import proofs.«148463_j17549236372232_2_alg».proof.Proof.Spec
import Idealize.ShloMosaic.Lib.ValueIdx
import Idealize.ShloMosaic.PureOps.Ideal.Laws

noncomputable section

open scoped BigOperators

namespace Cert.ReferenceIdeal.Whole

open Cert.ReferenceIdeal Cert.ReferenceIdeal.Gen Cert.ReferenceIdeal.Read Idealize.ShloMosaic Idealize.ShloMosaic.ValueIdx
open Idealize.ShloMosaic.EdgeMlp Cert.TreePotentials

/-- The rectifier's threshold: the real number zero as the reference spells it. -/
abbrev zero : EReal := Ideal.ofBits .f32 0x00000000#32

/-- The reference's hidden array is the hidden matrix of all rows. -/
theorem hidden_eq (x0 : S400000x256.Idx → EReal) (x2 : S256x128.Idx → EReal) (x3 : S128.Idx → EReal)
    (x4 : S128x128.Idx → EReal) (x5 : S128.Idx → EReal) :
    val_main_v9 (F := Ideal) x0 x2 x3 x4 x5 = hidden zero x0 x2 x3 x4 x5 := by
  funext i
  obtain ⟨r, j, rfl⟩ : ∃ (r : Fin 400000) (j : Fin 128), i = ix2 r j := ⟨i 0, i 1, eq_ix2 i⟩
  unfold val_main_v9 val_main_call1_v0 val_main_call1_cst val_main_v8 val_main_v7 val_main_v6 val_main_v5
  refine (relu_host_apply _ _ (ix2 r j)).trans ?_
  show max (_ : EReal) zero = max (dense x4 x5 (fun k => max (dense x2 x3 (fun k' => x0 (ix2 r k')) k) zero) j) zero
  refine congrArg (fun t => max t zero) ?_
  refine (dot_bias_apply dot_S400000x128_S128x128_S400000x128_1_0_0_1_n_n rfl rfl rfl rfl lhs_main_v5_0 rhs_main_v5_1 none _ x4 x5 _ _ r j).trans ?_
  refine dense_congr x4 x5 _ _ (fun k => ?_) j
  unfold val_main_v4 val_main_call0_v0 val_main_call0_cst val_main_v3 val_main_v2 val_main_v1 val_main_v0
  refine (relu_host_apply _ _ (ix2 r k)).trans ?_
  refine congrArg (fun t => max t zero) ?_
  exact dot_bias_apply dot_S400000x256_S256x128_S400000x128_1_0_0_1_n_n rfl rfl rfl rfl lhs_main_v0_0 rhs_main_v0_1 none x0 x2 x3 _ _ r k

/-- The rows the reference gathers: one row of the hidden matrix per node, chosen by the node's parent index
    (a negative index read from the end). -/
abbrev parentRows (x1 : S400000.Idx → BitVec 32) (h : S400000x128.Idx → EReal) : S400000x128.Idx → EReal :=
  Host.gather gather_S400000x128_S400000x1_S400000x128_1_0_n_n_0_1_1128 h (val_main_v19 (F := Ideal) x1)

/-- The reference's result is the output matrix of all rows. -/
theorem result_eq (x0 : S400000x256.Idx → EReal) (x1 : S400000.Idx → BitVec 32) (x2 : S256x128.Idx → EReal) (x3 : S128.Idx → EReal)
    (x4 : S128x128.Idx → EReal) (x5 : S128.Idx → EReal) (x6 : S128x16.Idx → EReal) (x7 : S16.Idx → EReal)
    (x8 : S256x256.Idx → EReal) (x9 : S256.Idx → EReal) :
    val_main_v26 (F := Ideal) x0 x1 x2 x3 x4 x5 x6 x7 x8 x9
      = potentials concatenates_S400000x128_S400000x128_S400000x256_d1 concatenates_S400000x16_S400000x256_S400000x272_d1
          (parentRows x1 (hidden zero x0 x2 x3 x4 x5)) (hidden zero x0 x2 x3 x4 x5) x6 x7 x8 x9 := by
  unfold val_main_v26 potentials
  refine congrArg₂ (fun a b => concatenate S400000x272 1 [⟨S400000x16, a⟩, ⟨S400000x256, b⟩] concatenates_S400000x16_S400000x256_S400000x272_d1) ?_ ?_
  · funext i
    obtain ⟨r, j, rfl⟩ : ∃ (r : Fin 400000) (j : Fin 16), i = ix2 r j := ⟨i 0, i 1, eq_ix2 i⟩
    unfold val_main_v13 val_main_v12 val_main_v11 val_main_v10
    rw [hidden_eq]
    exact dot_bias_apply dot_S400000x128_S128x16_S400000x16_1_0_0_1_n_n rfl rfl rfl rfl lhs_main_v10_0 rhs_main_v10_1 none _ x6 x7 _ _ r j
  · funext i
    obtain ⟨r, j, rfl⟩ : ∃ (r : Fin 400000) (j : Fin 256), i = ix2 r j := ⟨i 0, i 1, eq_ix2 i⟩
    unfold val_main_v25 val_main_v24 val_main_v23 val_main_v22 val_main_v21 val_main_v20
    rw [hidden_eq]
    exact dot_bias_apply dot_S400000x256_S256x256_S400000x256_1_0_0_1_n_n rfl rfl rfl rfl lhs_main_v22_0 rhs_main_v22_1 none _ x8 x9 _ _ r j

end Cert.ReferenceIdeal.Whole

end
-- ==== Proof.lean ====
/-
  The kernel with two grids computes what the reference computes, on the extended reals.

  Both programs send each node's feature row through two dense layers with a rectifier to a hidden row, gather for
  every node the hidden row of its parent, and produce for every node the row  [ h · Wu + bu ,  [h_parent, h] · We + be ].
  The kernel does the first part 8000 rows at a time and the last part 4000 rows at a time, converting its weights
  to a shorter float format on the way, which changes nothing on the extended reals; the reference works on whole
  matrices. Since every output row depends on one row of each matrix only, the blocks of the kernel's arrays are
  the blocks of the reference's, and the two result arrays are one function of the arguments: the output matrix
  of all rows. The gather of parent rows is the same operation of the same hidden matrix and the same indices in
  both programs. No step needs the inputs to be finite.
-/
import proofs.«148463_j17549236372232_2_alg».proof.Defs
import proofs.«148463_j17549236372232_2_alg».proof.Proof.Gen.Kernel
import proofs.«148463_j17549236372232_2_alg».proof.Proof.Gen.Kernel.Skeleton
import proofs.«148463_j17549236372232_2_alg».proof.Proof.Gen.Kernel.Launch
import proofs.«148463_j17549236372232_2_alg».proof.Proof.Gen.Kernel.Points
import proofs.«148463_j17549236372232_2_alg».proof.Proof.Gen.Kernel.Frame
import proofs.«148463_j17549236372232_2_alg».proof.Proof.Gen.KernelIdeal
import proofs.«148463_j17549236372232_2_alg».proof.Proof.Gen.KernelIdeal.Skeleton
import proofs.«148463_j17549236372232_2_alg».proof.Proof.Gen.KernelIdeal.Launch
import proofs.«148463_j17549236372232_2_alg».proof.Proof.Gen.KernelIdeal.Points
import proofs.«148463_j17549236372232_2_alg».proof.Proof.Gen.KernelIdeal.Frame
import proofs.«148463_j17549236372232_2_alg».proof.Proof.Gen.ReferenceIdeal
import proofs.«148463_j17549236372232_2_alg».proof.Proof.Gen.Pre_finite_inputs
import proofs.«148463_j17549236372232_2_alg».proof.Proof.Gen.ReferenceIdeal.Run
import proofs.«148463_j17549236372232_2_alg».proof.Proof.Gen.ReferenceIdeal.Read
import proofs.«148463_j17549236372232_2_alg».proof.Proof.Spec
import proofs.«148463_j17549236372232_2_alg».proof.Proof.KernelRun
import proofs.«148463_j17549236372232_2_alg».proof.Proof.Reference
import Idealize.ShloMosaic.Adequacy
import Idealize.ShloMosaic.Init

noncomputable section

namespace Cert.Proof

open Idealize.ShloMosaic Idealize.ShloMosaic.TcCoe Idealize.SL.Sem Cert.TreePotentials

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- Both result arrays end holding the output matrix of all rows of the (agreeing) arguments. -/
theorem algebraic : Cert.algebraic_KernelIdeal_ReferenceIdeal := by
  intro m ρ m' ρ' _ hagree
  refine ⟨fun c => _, (θ_run Cert.KernelIdeal.defs _ _).mono (fun r h c => ⟨(h c).1.trans
      (Cert.KernelIdeal.Whole.out_eq m ρ Cert.ReferenceIdeal.Facts₀.concatenates_S400000x128_S400000x128_S400000x256_d1 Cert.ReferenceIdeal.Facts₀.concatenates_S400000x16_S400000x256_S400000x272_d1 c), (h c).2⟩)
      (Cert.KernelIdeal.Whole.run_out (F := Ideal) m ρ), ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v26_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))).trans ?_
  refine (Cert.ReferenceIdeal.Whole.result_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))).trans ?_
  obtain ⟨g0, g1, g2, g3, g4, g5, g6, g7, g8, g9⟩ := hagree c
  rw [g0, g1, g2, g3, g4, g5, g6, g7, g8, g9]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
